-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg5 : FVec F S16x4096 .f32) (main_arg6 : FVec F S4096x16 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S16x4096 .f32 := Host.absf main_arg5
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  let main_v24 : FVec F S4096x16 .f32 := Host.absf main_arg6
  let main_cst_8 : FVec F S_ .f32 := constant S_ .f32 0x7F800000#32
  let main_v25 : FVec F S4096x16 .f32 := broadcastInDim S4096x16 ![] bcast_S_S4096x16 main_cst_8
  let main_v26 : IVec S4096x16 1 := cmpf .olt main_v24 main_v25
  let main_c_9 : IVec S_ 1 := constantI S_ 1 1#1
  let main_v27 : IVec S_ 1 := (fun x v => Host.reduce IntOp.andi x v reducesTo_S4096x16_S_d0_1 h_S_) main_v26 main_c_9
  let main_v28 : IVec S_ 1 := andi main_v23 main_v27
  main_v28

def fn {F : FTy → Type} [FloatOps F] (main_arg0 : FVec F S4x2048x4096 .f32) (main_arg1 : IVec S4096x4096 32) (main_arg2 : FVec F S4096x1 .f32) (main_arg3 : FVec F S4096x1 .f32) (main_arg4 : FVec F S4096 .f32) (main_arg5 : FVec F S16x4096 .f32) (main_arg6 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x1 .f32 := Host.absf main_arg3
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg5 main_arg6 main_v13 main_v16
-- ==== Kernel.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S16x4096 : Shape := ⟨2, ![16, 4096]⟩
abbrev S4096x16 : Shape := ⟨2, ![4096, 16]⟩
abbrev S8192x4096 : Shape := ⟨2, ![8192, 4096]⟩
abbrev S1x4096 : Shape := ⟨2, ![1, 4096]⟩
abbrev S256x4096 : Shape := ⟨2, ![256, 4096]⟩
abbrev S512x4096 : Shape := ⟨2, ![512, 4096]⟩
abbrev S512x1 : Shape := ⟨2, ![512, 1]⟩
abbrev S1x512 : Shape := ⟨2, ![1, 512]⟩
abbrev S512x16 : Shape := ⟨2, ![512, 16]⟩
abbrev S256x512 : Shape := ⟨2, ![256, 512]⟩
abbrev S256x16 : Shape := ⟨2, ![256, 16]⟩
abbrev S512x512 : Shape := ⟨2, ![512, 512]⟩
abbrev S16x512 : Shape := ⟨2, ![16, 512]⟩

abbrev nBuf : Space → Nat
  | .hbm => 11
  | .vmem => 15
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x1, .f32⟩
  | .hbm, ⟨3, _⟩ => ⟨S4096x1, .f32⟩
  | .hbm, ⟨4, _⟩ => ⟨S4096, .f32⟩
  | .hbm, ⟨5, _⟩ => ⟨S16x4096, .f32⟩
  | .hbm, ⟨6, _⟩ => ⟨S4096x16, .f32⟩
  | .hbm, ⟨7, _⟩ => ⟨S8192x4096, .f32⟩
  | .hbm, ⟨8, _⟩ => ⟨S1x4096, .f32⟩
  | .hbm, ⟨9, _⟩ => ⟨S8192x4096, .f32⟩
  | .hbm, ⟨10, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S512x4096, .i32⟩
  | .local _ .vmem, ⟨3, _⟩ => ⟨S512x4096, .i32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S1x512, .f32⟩
  | .local _ .vmem, ⟨9, _⟩ => ⟨S1x512, .f32⟩
  | .local _ .vmem, ⟨10, _⟩ => ⟨S16x4096, .f32⟩
  | .local _ .vmem, ⟨11, _⟩ => ⟨S512x16, .f32⟩
  | .local _ .vmem, ⟨12, _⟩ => ⟨S512x16, .f32⟩
  | .local _ .vmem, ⟨13, _⟩ => ⟨S256x512, .f32⟩
  | .local _ .vmem, ⟨14, _⟩ => ⟨S256x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 32], ![false, false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32 : BitVec 32 := 512#32
  let v18 : BitVec 32 := Scalar.muli arg10 c512_i32
  v18
def k0_off1 (k0_t1 : Fin k0_t1_loop.trips) : Fin 2 → Nat :=
  let c0_13 : Index := 0#32
  let c0_i32 : BitVec 32 := 0#32
  let c1_i32 : BitVec 32 := 1#32
  let arg10 : BitVec 32 := Scf.iv c0_i32 c1_i32 k0_t1
  let c512_i32 : BitVec 32 := 512#32
  let v18 : BitVec 32 := Scalar.muli arg10 c512_i32
  let v19 : BitVec 32 := v18
  let v20 : Index := Scalar.indexCast v19
  ![0, v20.toNat]
def k0_off2 (k0_t1 : Fin k0_t1_loop.trips) : Fin 2 → Nat :=
  let c0_14 : Index := 0#32
  let c0_i32 : BitVec 32 := 0#32
  let c1_i32 : BitVec 32 := 1#32
  let arg10 : BitVec 32 := Scf.iv c0_i32 c1_i32 k0_t1
  let c512_i32 : BitVec 32 := 512#32
  let v18 : BitVec 32 := Scalar.muli arg10 c512_i32
  let v19 : BitVec 32 := v18
  let v24 : Index := Scalar.indexCast v19
  ![0, v24.toNat]
def k0_off3 (k0_t1 : Fin k0_t1_loop.trips) : Fin 2 → Nat :=
  let c0_16 : Index := 0#32
  let c0_i32 : BitVec 32 := 0#32
  let c1_i32 : BitVec 32 := 1#32
  let arg10 : BitVec 32 := Scf.iv c0_i32 c1_i32 k0_t1
  let c512_i32 : BitVec 32 := 512#32
  let v18 : BitVec 32 := Scalar.muli arg10 c512_i32
  let v19 : BitVec 32 := v18
  let v33 : Index := Scalar.indexCast v19
  ![0, v33.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S16x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S4x2048x4096_S8192x4096 : S4x2048x4096.ShapeCasts S8192x4096
  shapeCasts_S4096_S1x4096 : S4096.ShapeCasts S1x4096
  inb_S512x1_S512x1_0_0 : ∀ a, (![0, 0] : Fin 2 → Nat) a + S512x1.size a ≤ S512x1.size a
  h_S512x1 : 0 < S512x1.numel
  h_S256x512 : 0 < S256x512.numel
  shapeCasts_S256x512_S256x512 : S256x512.ShapeCasts S256x512
  bitsLt_bf16_f32 : FTy.bits .bf16 < FTy.bits .f32
  h_S512x512 : 0 < S512x512.numel
  broadcasts_S512x1_S512x512 : S512x1.Broadcasts S512x512
  h_S16x512 : 0 < S16x512.numel
  inb_S512x16_S512x16_0_0 : ∀ a, (![0, 0] : Fin 2 → Nat) a + S512x16.size a ≤ S512x16.size a
  h_S512x16 : 0 < S512x16.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S256x512_S256x512_0_0 : ∀ a, (![0, 0] : Fin 2 → Nat) a + S256x512.size a ≤ S256x512.size a
  shapeCasts_S8192x4096_S4x2048x4096 : S8192x4096.ShapeCasts S4x2048x4096
  dot_S256x512_S512x512_S256x512_1_1_0_0_n_n_wf : DotDims.WF S256x512 S512x512 S256x512 [1] [1] [0] [0] [] []
  dot_S256x512_S16x512_S256x16_1_1_0_0_n_n_wf : DotDims.WF S256x512 S16x512 S256x16 [1] [1] [0] [0] [] []
  dot_S256x16_S512x16_S256x512_1_1_0_0_n_n_wf : DotDims.WF S256x16 S512x16 S256x512 [1] [1] [0] [0] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S256x512.size a ≤ S256x4096.size a
  k0_off2_inb : ∀ k0_t1 : Fin k0_t1_loop.trips, ∀ a, (k0_off2 k0_t1) a + S512x512.size a ≤ S512x4096.size a
  k0_off3_inb : ∀ k0_t1 : Fin k0_t1_loop.trips, ∀ a, (k0_off3 k0_t1) a + S16x512.size a ≤ S16x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .i32 = 32 ∨ (Rect.block (s := S4096x4096) S512x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x4096.size a ≤ S16x4096.size a
  hwx0_5 : ∀ i : grid0.Coords, EltTy.bits .f32 = 32 ∨ (Rect.block (s := S16x4096) S16x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x16.size a ≤ S4096x16.size a
  hwx0_6 : ∀ i : grid0.Coords, EltTy.bits .f32 = 32 ∨ (Rect.block (s := S4096x16) S512x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S8192x4096.size a
  hwx0_7 : ∀ i : grid0.Coords, EltTy.bits .f32 = 32 ∨ (Rect.block (s := S8192x4096) S256x512.size (cc0_transform_7 i) (hinb0_7 i)).WholeWords (EltTy.packing .f32)

variable [Facts₀]

def dot_S256x512_S512x512_S256x512_1_1_0_0_n_n : DotDims S256x512 S512x512 S256x512 where
  lhsContracting := [1]
  rhsContracting := [1]
  lhsNonContracting := [0]
  rhsNonContracting := [0]
  lhsBatch := []
  rhsBatch := []
  wf := dot_S256x512_S512x512_S256x512_1_1_0_0_n_n_wf
def dot_S256x512_S16x512_S256x16_1_1_0_0_n_n : DotDims S256x512 S16x512 S256x16 where
  lhsContracting := [1]
  rhsContracting := [1]
  lhsNonContracting := [0]
  rhsNonContracting := [0]
  lhsBatch := []
  rhsBatch := []
  wf := dot_S256x512_S16x512_S256x16_1_1_0_0_n_n_wf
def dot_S256x16_S512x16_S256x512_1_1_0_0_n_n : DotDims S256x16 S512x16 S256x512 where
  lhsContracting := [1]
  rhsContracting := [1]
  lhsNonContracting := [0]
  rhsNonContracting := [0]
  lhsBatch := []
  rhsBatch := []
  wf := dot_S256x16_S512x16_S256x512_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x16.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2) S256x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S4x2048x16 : Shape := ⟨3, ![4, 2048, 16]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x1, .f32⟩
  | .hbm, ⟨3, _⟩ => ⟨S4096x1, .f32⟩
  | .hbm, ⟨4, _⟩ => ⟨S4096, .f32⟩
  | .hbm, ⟨5, _⟩ => ⟨S16x4096, .f32⟩
  | .hbm, ⟨6, _⟩ => ⟨S4096x16, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4x2048x4096, .f32⟩
  | .hbm, ⟨13, _⟩ => ⟨S1x1x4096, .f32⟩
  | .hbm, ⟨14, _⟩ => ⟨S4x2048x4096, .f32⟩
  | .hbm, ⟨15, _⟩ => ⟨S4x2048x4096, .f32⟩
  | .hbm, ⟨16, _⟩ => ⟨S4x2048x16, .f32⟩
  | .hbm, ⟨17, _⟩ => ⟨S4x2048x4096, .f32⟩
  | .hbm, ⟨18, _⟩ => ⟨S_, .f32⟩
  | .hbm, ⟨19, _⟩ => ⟨S4x2048x4096, .f32⟩
  | .hbm, ⟨20, _⟩ => ⟨S4x2048x4096, .f32⟩
  | .hbm, ⟨21, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.LibDotTransposed.lean ====
/-
  A matrix product against a transposed right operand, read at an index, on the extended reals.

  For dimension numbers that contract the second axis of BOTH operands — an [M, K] array against a [P, K] array, the
  product of the first with the transpose of the second — the product into a zero accumulator, read at row `p` and
  column `q`, is `Σ k, l (p, k) · r (q, k)`: the dot product of row `p` of the left operand with row `q` of the right
  one. The contraction's index set has one axis; the sum is re-indexed through that axis's coordinate. The two facts
  about the free axes (the left index keeps the row, the right index keeps the output's column as its row) are taken as
  hypotheses, since for given dimension numbers they hold by computation.
-/
import Idealize.ShloMosaic.PureOps.Ideal.Laws
import Idealize.ShloMosaic.Lib.ValueIdx

noncomputable section

open scoped BigOperators

namespace Cert.LibDotTransposed

open Idealize.ShloMosaic Idealize.ShloMosaic.ValueIdx

/-- The product with the transposed right operand, into the zero accumulator, at (p, q): the sum over the contraction
    coordinate of the left operand at (p, k) times the right operand at (q, k). -/
theorem matmul_zero_apply {M K P : ℕ} {φ₁ φ₂ : FTy}
    (D : DotDims ⟨2, ![M, K]⟩ ⟨2, ![P, K]⟩ ⟨2, ![M, P]⟩)
    (hlc : D.lhsContracting = [1]) (hrc : D.rhsContracting = [1])
    (hl0 : ∀ (j : (⟨2, ![M, P]⟩ : Shape).Idx) (c : D.contr.Idx), (D.lhsIdx j c 0).val = (j 0).val)
    (hr0 : ∀ (j : (⟨2, ![M, P]⟩ : Shape).Idx) (c : D.contr.Idx), (D.rhsIdx j c 0).val = (j 1).val)
    (hrank : D.contr.rank = 1) (hsize : D.contr.size ⟨0, by omega⟩ = K)
    (prec : Option ContractPrecision)
    (l : FVec Ideal ⟨2, ![M, K]⟩ φ₁) (r : FVec Ideal ⟨2, ![P, K]⟩ φ₂) (p : Fin M) (q : Fin P) :
    FloatOps.matmul D prec l r (constant ⟨2, ![M, P]⟩ .f32 0x00000000#32) (ix2 p q)
      = ∑ k : Fin K, l (ix2 p k) * r (ix2 q k) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 q k := funext fun a => Fin.ext (by
    match a with
    | ⟨0, _⟩ => exact hr0 _ _
    | ⟨1, _⟩ => exact (D.rhsIdx_val_of_single hrc _ _).trans hk)
  rw [el, er]

end Cert.LibDotTransposed

end
-- ==== Proof.LibColumn.lean ====
/-
  A column of per-row values used against a matrix.

  A vector of length `a` written as an `[a, 1]` column (a reshape that appends a unit axis) holds, at row `i`, the
  vector's entry `i`; and an `[a, 1]` column broadcast along the second axis to `[a, b]` holds, at `(p, c)`, the
  column's entry of row `p`, whatever the column coordinate `c`. Both are read off the general index lemmas for a
  shape cast (equal row-major positions) and for a broadcast (unit axes read at 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.PayIdx.lean ====
/-
  The kernel body's three pure values, read at an index, on the extended reals.

  One trip of the K-loop takes the running [256, 512] accumulator and adds the product of the trip's [256, 512] slice of
  the activations with the transpose of the trip's dequantized [512, 512] slice of the weight, whose entry (q, k) is
  `code(q, k) · scale(q) + min(q)`; beside it the running [256, 16] accumulator takes the product of the same slice of
  the activations with the transpose of the trip's [16, 512] slice of the low-rank factor A. After the loop the stored
  block is `(acc + bias(q)) + (Σ r, accA(p, r) · B(q, r)) · 2`. Every product contracts the second axis of both
  operands; a change of float format is the identity on the extended reals.
-/
import proofs.«162262_j9423158247447_1_alg».proof.Proof.Gen.KernelIdeal.Skeleton
import proofs.«162262_j9423158247447_1_alg».proof.Proof.LibDotTransposed
import proofs.«162262_j9423158247447_1_alg».proof.Proof.LibColumn
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KernelIdeal.PayIdx

open Cert.KernelIdeal Cert.KernelIdeal.Gen Idealize.ShloMosaic Idealize.ShloMosaic.ValueIdx

/-! ## The free axes of the three products -/

theorem w_l0 (j : S256x512.Idx) (c : dot_S256x512_S512x512_S256x512_1_1_0_0_n_n.contr.Idx) :
    (dot_S256x512_S512x512_S256x512_1_1_0_0_n_n.lhsIdx j c 0).val = (j 0).val := by
  unfold DotDims.lhsIdx
  rw [dif_neg (show ¬(0 : Fin S256x512.rank) ∈ dot_S256x512_S512x512_S256x512_1_1_0_0_n_n.lhsBatch by decide), dif_pos (show (0 : Fin S256x512.rank) ∈ dot_S256x512_S512x512_S256x512_1_1_0_0_n_n.lhsNonContracting by decide)]
  rfl
theorem w_r0 (j : S256x512.Idx) (c : dot_S256x512_S512x512_S256x512_1_1_0_0_n_n.contr.Idx) :
    (dot_S256x512_S512x512_S256x512_1_1_0_0_n_n.rhsIdx j c 0).val = (j 1).val := by
  unfold DotDims.rhsIdx
  rw [dif_neg (show ¬(0 : Fin S512x512.rank) ∈ dot_S256x512_S512x512_S256x512_1_1_0_0_n_n.rhsBatch by decide), dif_pos (show (0 : Fin S512x512.rank) ∈ dot_S256x512_S512x512_S256x512_1_1_0_0_n_n.rhsNonContracting by decide)]
  rfl

theorem a_l0 (j : S256x16.Idx) (c : dot_S256x512_S16x512_S256x16_1_1_0_0_n_n.contr.Idx) :
    (dot_S256x512_S16x512_S256x16_1_1_0_0_n_n.lhsIdx j c 0).val = (j 0).val := by
  unfold DotDims.lhsIdx
  rw [dif_neg (show ¬(0 : Fin S256x512.rank) ∈ dot_S256x512_S16x512_S256x16_1_1_0_0_n_n.lhsBatch by decide), dif_pos (show (0 : Fin S256x512.rank) ∈ dot_S256x512_S16x512_S256x16_1_1_0_0_n_n.lhsNonContracting by decide)]
  rfl
theorem a_r0 (j : S256x16.Idx) (c : dot_S256x512_S16x512_S256x16_1_1_0_0_n_n.contr.Idx) :
    (dot_S256x512_S16x512_S256x16_1_1_0_0_n_n.rhsIdx j c 0).val = (j 1).val := by
  unfold DotDims.rhsIdx
  rw [dif_neg (show ¬(0 : Fin S16x512.rank) ∈ dot_S256x512_S16x512_S256x16_1_1_0_0_n_n.rhsBatch by decide), dif_pos (show (0 : Fin S16x512.rank) ∈ dot_S256x512_S16x512_S256x16_1_1_0_0_n_n.rhsNonContracting by decide)]
  rfl

theorem b_l0 (j : S256x512.Idx) (c : dot_S256x16_S512x16_S256x512_1_1_0_0_n_n.contr.Idx) :
    (dot_S256x16_S512x16_S256x512_1_1_0_0_n_n.lhsIdx j c 0).val = (j 0).val := by
  unfold DotDims.lhsIdx
  rw [dif_neg (show ¬(0 : Fin S256x16.rank) ∈ dot_S256x16_S512x16_S256x512_1_1_0_0_n_n.lhsBatch by decide), dif_pos (show (0 : Fin S256x16.rank) ∈ dot_S256x16_S512x16_S256x512_1_1_0_0_n_n.lhsNonContracting by decide)]
  rfl
theorem b_r0 (j : S256x512.Idx) (c : dot_S256x16_S512x16_S256x512_1_1_0_0_n_n.contr.Idx) :
    (dot_S256x16_S512x16_S256x512_1_1_0_0_n_n.rhsIdx j c 0).val = (j 1).val := by
  unfold DotDims.rhsIdx
  rw [dif_neg (show ¬(0 : Fin S512x16.rank) ∈ dot_S256x16_S512x16_S256x512_1_1_0_0_n_n.rhsBatch by decide), dif_pos (show (0 : Fin S512x16.rank) ∈ dot_S256x16_S512x16_S256x512_1_1_0_0_n_n.rhsNonContracting by decide)]
  rfl

/-! ## The values at an index -/

/-- The activations' slice as the products take it: its own entries. -/
theorem pay3_apply (v21 : Vec Ideal S256x512 .f32) (j : S256x512.Idx) : k0_pay3 (F := Ideal) v21 j = v21 j := by
  unfold k0_pay3
  show shapeCast S256x512 v21 shapeCasts_S256x512_S256x512 j = v21 j
  rw [shapeCast_self]

/-- The dequantized weight slice at (q, k): `code(q, k) · scale(q) + min(q)`. -/
def wq (v0 v1 : Vec Ideal S512x1 .f32) (v25 : Vec Ideal S512x512 .i32) (q k : Fin 512) : EReal :=
  (FloatOps.sitofp (F := Ideal) .f32 (v25 (ix2 q k)) : EReal) * v1 (ix2 q (0 : Fin 1)) + v0 (ix2 q (0 : Fin 1))

/-- One trip's main accumulator at (p, q): the carried value plus the trip's 512-term dot product. -/
theorem pay4_apply (v0 v1 : Vec Ideal S512x1 .f32) (acc : FVec Ideal S256x512 .f32) (v21 : Vec Ideal S256x512 .f32)
    (v25 : Vec Ideal S512x512 .i32) (p : Fin 256) (q : Fin 512) :
    k0_pay4 (F := Ideal) v0 v1 acc v21 v25 (ix2 p q)
      = acc (ix2 p q) + ∑ k : Fin 512, v21 (ix2 p k) * wq v0 v1 v25 q k := by
  unfold k0_pay4
  refine (addf_apply _ _ _).trans ?_
  refine congrArg (acc (ix2 p q) + ·) ?_
  refine (Cert.LibDotTransposed.matmul_zero_apply (M := 256) (K := 512) (P := 512) dot_S256x512_S512x512_S256x512_1_1_0_0_n_n rfl rfl w_l0 w_r0 rfl rfl none _ _ p q).trans ?_
  refine Finset.sum_congr rfl fun k _ => ?_
  rw [pay3_apply]
  refine congrArg (v21 (ix2 p k) * ·) ?_
  show (FloatOps.sitofp (F := Ideal) .f32 (v25 (ix2 q k)) : EReal) * broadcastTo S512x512 v1 broadcasts_S512x1_S512x512 (ix2 q k)
      + broadcastTo S512x512 v0 broadcasts_S512x1_S512x512 (ix2 q k) = _
  rw [Cert.LibColumn.broadcastTo_a1_ab_apply (a := 512) (b := 512) v1 broadcasts_S512x1_S512x512 q k,
    Cert.LibColumn.broadcastTo_a1_ab_apply (a := 512) (b := 512) v0 broadcasts_S512x1_S512x512 q k]
  rfl

/-- One trip's low-rank accumulator at (p, r): the carried value plus the trip's 512-term dot product with row r of A. -/
theorem pay5_apply (acc : FVec Ideal S256x16 .f32) (v21 : Vec Ideal S256x512 .f32) (v34 : Vec Ideal S16x512 .f32)
    (p : Fin 256) (r : Fin 16) :
    k0_pay5 (F := Ideal) acc v21 v34 (ix2 p r)
      = acc (ix2 p r) + ∑ k : Fin 512, v21 (ix2 p k) * v34 (ix2 r k) := by
  unfold k0_pay5
  refine (addf_apply _ _ _).trans ?_
  refine congrArg (acc (ix2 p r) + ·) ?_
  refine (Cert.LibDotTransposed.matmul_zero_apply (M := 256) (K := 512) (P := 16) dot_S256x512_S16x512_S256x16_1_1_0_0_n_n rfl rfl a_l0 a_r0 rfl rfl none _ _ p r).trans ?_
  refine Finset.sum_congr rfl fun k _ => ?_
  rw [pay3_apply]
  rfl

/-- The stored block at (p, q): `(acc + bias(q)) + (Σ r, accA(p, r) · B(q, r)) · 2`. -/
theorem pay6_apply (v5_0 : FVec Ideal S256x512 .f32) (v5_1 : FVec Ideal S256x16 .f32) (v6 : Vec Ideal S512x16 .f32)
    (v10 : Vec Ideal S1x512 .f32) (p : Fin 256) (q : Fin 512) :
    k0_pay6 (F := Ideal) v5_0 v5_1 v6 v10 (ix2 p q)
      = (v5_0 (ix2 p q) + v10 (ix2 (0 : Fin 1) q))
        + (∑ r : Fin 16, v5_1 (ix2 p r) * v6 (ix2 q r)) * Ideal.ofBits .f32 0x40000000#32 := by
  unfold k0_pay6
  refine (addf_apply _ _ _).trans ?_
  refine congrArg₂ (· + ·) ?_ ?_
  · refine (addf_apply _ _ _).trans ?_
    refine congrArg (v5_0 (ix2 p q) + ·) ?_
    refine (broadcastTo_1b_ab_apply (a := 256) (b := 512) _ broadcasts_S1x512_S256x512 p q).trans ?_
    rw [shapeCast_self]
  · refine (mulf_apply _ _ _).trans ?_
    refine congrArg₂ (· * ·) ?_ rfl
    exact Cert.LibDotTransposed.matmul_zero_apply (M := 256) (K := 16) (P := 512) dot_S256x16_S512x16_S256x512_1_1_0_0_n_n rfl rfl b_l0 b_r0 rfl rfl none _ _ p q

end Cert.KernelIdeal.PayIdx

end
-- ==== Proof.LibChunkSum.lean ====
/-
  A sum taken chunk by chunk. A running total that starts at zero and, at step `c`, adds the sum of the
  `b` consecutive terms `g (b * c), …, g (b * c + b - 1)`, holds after `n` steps the sum of the first
  `b * n` terms. Only commutativity and associativity of addition are used, so the statement holds in any
  additive commutative monoid — in particular on the extended reals, where no finiteness is needed.
-/
import Mathlib.Algebra.BigOperators.Fin

namespace ChunkSum

open Finset

variable {M : Type*} [AddCommMonoid M]

/-- The running total after `c` chunks of `b` terms each, from `init`. -/
def running (b : ℕ) (g : ℕ → M) (init : M) : ℕ → M
  | 0 => init
  | c + 1 => running b g init c + ∑ k : Fin b, g (b * c + k.val)

@[simp] theorem running_zero (b : ℕ) (g : ℕ → M) (init : M) : running b g init 0 = init := rfl

theorem running_succ (b : ℕ) (g : ℕ → M) (init : M) (c : ℕ) :
    running b g init (c + 1) = running b g init c + ∑ k : Fin b, g (b * c + k.val) := rfl

/-- After `n` chunks the running total is `init` plus the sum of the first `b * n` terms. -/
theorem running_eq_range (b : ℕ) (g : ℕ → M) (init : M) (n : ℕ) :
    running b g init n = init + ∑ i ∈ range (b * n), g i := by
  induction n with
  | zero => simp
  | succ c ih =>
    rw [running_succ, ih, Nat.mul_succ, sum_range_add, add_assoc]
    congr 2
    exact Fin.sum_univ_eq_sum_range (fun k => g (b * c + k)) b

/-- The same, with the total written over `Fin N` for `N = b * n`. -/
theorem running_eq_sum (b n N : ℕ) (hN : N = b * n) (g : ℕ → M) (init : M) :
    running b g init n = init + ∑ i : Fin N, g i.val := by
  subst hN
  rw [running_eq_range, Fin.sum_univ_eq_sum_range (fun i => g i) (b * n)]

end ChunkSum
-- ==== Proof.Spec.lean ====
/-
  The function both programs compute, on the extended reals.

  For activations `X` ([R, 4096]), 4-bit weight codes `Q` ([O, 4096], as integers), per-output-row `wmin` and `wscale`
  ([O, 1]), a bias row ([1, O]) and low-rank factors `A` ([16, 4096]) and `B` ([O, 16]), entry (p, q) of the result is

      (Σ n, X(p, n) · (Q(q, n) · wscale(q) + wmin(q)) + bias(q)) + (Σ r, (Σ n, X(p, n) · A(r, n)) · B(q, r)) · 2.

  It is stated once for any numbers of rows `R` and outputs `O`, so that one grid point's [256, 512] block and the whole
  [8192, 4096] array are instances of the same formula. Also here: a load of `c` consecutive columns of a two-axis array
  read at an index, and a 4096-term sum regrouped as eight consecutive 512-term sums.
-/
import Idealize.ShloMosaic.Lib.ValueIdx
import Idealize.ShloMosaic.Lib.Pipeline.Value
import Idealize.ShloMosaic.PureOps.Ideal.Laws
import proofs.«162262_j9423158247447_1_alg».proof.Proof.LibChunkSum

noncomputable section

open scoped BigOperators

namespace Cert.Spec

open Idealize.ShloMosaic Idealize.ShloMosaic.ValueIdx

/-- The literal `2.0` both programs scale the low-rank term by. -/
abbrev two : EReal := Ideal.ofBits .f32 0x40000000#32

/-- A dequantized weight entry: `code · scale + min` of its output row. -/
def deq {O : ℕ} (Q : (⟨2, ![O, 4096]⟩ : Shape).Idx → BitVec 32) (wmin wscale : (⟨2, ![O, 1]⟩ : Shape).Idx → EReal)
    (q : Fin O) (n : Fin 4096) : EReal :=
  (FloatOps.sitofp (F := Ideal) .f32 (Q (ix2 q n)) : EReal) * wscale (ix2 q (0 : Fin 1)) + wmin (ix2 q (0 : Fin 1))

/-- Entry (p, q) of the quantized linear layer with its low-rank correction. -/
def out {R O : ℕ} (X : (⟨2, ![R, 4096]⟩ : Shape).Idx → EReal) (Q : (⟨2, ![O, 4096]⟩ : Shape).Idx → BitVec 32)
    (wmin wscale : (⟨2, ![O, 1]⟩ : Shape).Idx → EReal) (bias : (⟨2, ![1, O]⟩ : Shape).Idx → EReal)
    (A : (⟨2, ![16, 4096]⟩ : Shape).Idx → EReal) (B : (⟨2, ![O, 16]⟩ : Shape).Idx → EReal) (p : Fin R) (q : Fin O) : EReal :=
  ((∑ n : Fin 4096, X (ix2 p n) * deq Q wmin wscale q n) + bias (ix2 (0 : Fin 1) q))
    + (∑ r : Fin 16, (∑ n : Fin 4096, X (ix2 p n) * A (ix2 r n)) * B (ix2 q r)) * two

/-- A term of a 4096-term sum as a function of a natural number (zero past the end), for the chunked running total. -/
def term (f : Fin 4096 → EReal) (n : ℕ) : EReal := if h : n < 4096 then f ⟨n, h⟩ else 0

theorem term_val (f : Fin 4096 → EReal) (n : Fin 4096) : term f n.val = f n := by
  unfold term; rw [dif_pos n.isLt]

theorem term_of_lt (f : Fin 4096 → EReal) (n : ℕ) (h : n < 4096) : term f n = f ⟨n, h⟩ := by
  unfold term; rw [dif_pos h]

/-- Eight consecutive 512-term chunks, accumulated from zero, make the 4096-term sum. -/
theorem running_eight (f : Fin 4096 → EReal) :
    ChunkSum.running 512 (term f) 0 8 = ∑ n : Fin 4096, f n := by
  rw [ChunkSum.running_eq_sum 512 8 4096 (by norm_num) (term f) 0, zero_add]
  exact Finset.sum_congr rfl fun n _ => term_val f n

/-- A load of `c` consecutive columns, from column `o`, of all `R` rows of an [R, C] array, read at (p, k). -/
theorem ld_columns {Val : EltTy → Type} {e : EltTy} {R C c : ℕ} (X : (⟨2, ![R, C]⟩ : Shape).Idx → Val e) (off : Fin 2 → ℕ) (o : ℕ)
    (hoff : off = ![0, o])
    (inb : ∀ a, off a + (⟨2, ![R, c]⟩ : Shape).size a ≤ (⟨2, ![R, C]⟩ : Shape).size a)
    (p : Fin R) (k : Fin c) (hk : o + k.val < C) :
    View.ld X (Rect.unit (s := ⟨2, ![R, C]⟩) off (⟨2, ![R, c]⟩ : Shape).size inb) (ix2 p k) = X (ix2 p ⟨o + k.val, hk⟩) := by
  subst hoff
  show X _ = X _
  refine congrArg X (funext fun a => Fin.ext ?_)
  match a with
  | ⟨0, _⟩ => show 0 + 1 * p.val = p.val; omega
  | ⟨1, _⟩ => show o + 1 * k.val = o + k.val; omega

end Cert.Spec

end
-- ==== Proof.Point.lean ====
/-
  What one grid point leaves in its output block, on the extended reals.

  The body's K-loop carries two running totals. Trip `n` loads columns `512 n … 512 n + 511` of the point's activation
  block, of its weight-code block and of the low-rank factor A, and adds to the totals the 512-term dot products over
  those columns. By induction on the trip, the totals before trip `n` are the chunked running sums of the first `n`
  chunks; after the eighth trip they are the full 4096-term sums, since addition on the extended reals is commutative
  and associative (no finiteness is needed). The block stored after the loop is therefore the layer's formula
  (`Spec.out`) of the point's seven input blocks.
-/
import proofs.«162262_j9423158247447_1_alg».proof.Proof.Gen.KernelIdeal.Frame
import proofs.«162262_j9423158247447_1_alg».proof.Proof.PayIdx
import proofs.«162262_j9423158247447_1_alg».proof.Proof.Spec

set_option maxRecDepth 16384

noncomputable section

open scoped BigOperators

namespace Cert.KernelIdeal.Point

open Cert.KernelIdeal Cert.KernelIdeal.Gen Idealize.ShloMosaic Idealize.ShloMosaic.TcCoe Idealize.ShloMosaic.ValueIdx
open Idealize.SL Idealize.SL.Sem

/-- The K-loop makes eight trips. -/
theorem trips_eq : k0_t1_loop.trips = 8 := by decide

theorem hz : (![0, 0] : Fin 2 → Nat) = fun _ => 0 := funext fun a => by fin_cases a <;> rfl

/-- One trip's yield, from the carried pair: the two payloads of the trip's three column slices. -/
theorem trip_eq (𝒱 : Variants) (bd : Option 𝒱.V) (c : Dev nD) (i : grid0.Coords) (arg2 : Memref sig .tc .vmem S256x4096 .f32) (harg2 : arg2.IsWhole) (arg3 : Memref sig .tc .vmem S512x4096 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x512 .f32) (harg6 : arg6.IsWhole) (arg7 : Memref sig .tc .vmem S16x4096 .f32) (harg7 : arg7.IsWhole) (arg8 : Memref sig .tc .vmem S512x16 .f32) (harg8 : arg8.IsWhole) (arg9 : Memref sig .tc .vmem S256x512 .f32) (harg9 : arg9.IsWhole)
    (v0 v1 : Vec Ideal S512x1 .f32) (X2 : BufTy.Contents (Elt Ideal) arg2.view.ty) (X3 : BufTy.Contents (Elt Ideal) arg3.view.ty)
    (X7 : BufTy.Contents (Elt Ideal) arg7.view.ty) (k : Fin k0_t1_loop.trips) (acc : FVec Ideal S256x512 .f32 × FVec Ideal S256x16 .f32) :
    tripR_k0_t1 (F := Ideal) 𝒱 c bd i arg2 harg2 arg3 harg3 arg4 harg4 arg5 harg5 arg6 harg6 arg7 harg7 arg8 harg8 arg9 harg9 v0 v1 X2 X3 X7 k acc
      = (k0_pay4 v0 v1 acc.1
            (View.readAt (Elt Ideal) arg2.view (Rect.unit (s := S256x4096) (k0_off1 k) S256x512.size (k0_off1_inb k)).toLoadRect X2)
            (View.readAt (Elt Ideal) arg3.view (Rect.unit (s := S512x4096) (k0_off2 k) S512x512.size (k0_off2_inb k)).toLoadRect X3),
         k0_pay5 acc.2
            (View.readAt (Elt Ideal) arg2.view (Rect.unit (s := S256x4096) (k0_off1 k) S256x512.size (k0_off1_inb k)).toLoadRect X2)
            (View.readAt (Elt Ideal) arg7.view (Rect.unit (s := S16x4096) (k0_off3 k) S16x512.size (k0_off3_inb k)).toLoadRect X7)) := by
  unfold tripR_k0_t1 trip_k0_t1
  rfl

section
variable (c : Dev nD) (i : grid0.Coords) (arg2 : Memref sig .tc .vmem S256x4096 .f32) (harg2 : arg2.IsWhole) (arg3 : Memref sig .tc .vmem S512x4096 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x512 .f32) (harg6 : arg6.IsWhole) (arg7 : Memref sig .tc .vmem S16x4096 .f32) (harg7 : arg7.IsWhole) (arg8 : Memref sig .tc .vmem S512x16 .f32) (harg8 : arg8.IsWhole) (arg9 : Memref sig .tc .vmem S256x512 .f32) (harg9 : arg9.IsWhole)
  (x0 : Vec Ideal S256x4096 .f32) (x1 : Vec Ideal S512x4096 .i32) (x2 x3 : Vec Ideal S512x1 .f32) (x4 : Vec Ideal S1x512 .f32)
  (x5 : Vec Ideal S16x4096 .f32) (x6 : Vec Ideal S512x16 .f32)

/-- The pair the loop carries before trip `n`, from zeros, over whole staging buffers holding the blocks. -/
def carried (n : ℕ) : FVec Ideal S256x512 .f32 × FVec Ideal S256x16 .f32 :=
  st_k0_t1 (F := Ideal) Variants.none c none i arg2 harg2 arg3 harg3 arg4 harg4 arg5 harg5 arg6 harg6 arg7 harg7 arg8 harg8 arg9 harg9
    x2 x3 (harg2.unread x0) (harg3.unread x1) (harg7.unread x5) (k0_pay1 (F := Ideal), k0_pay2 (F := Ideal)) n

local notation "CAR" => carried c i arg2 harg2 arg3 harg3 arg4 harg4 arg5 harg5 arg6 harg6 arg7 harg7 arg8 harg8 arg9 harg9 x0 x1 x2 x3 x5

/-- The stored block is the last payload of the loop's final pair, the weight-row block of B and the bias block. -/
theorem block_eq :
    out0_A_7 (F := Ideal) c i arg2 harg2 arg3 harg3 arg4 harg4 arg5 harg5 arg6 harg6 arg7 harg7 arg8 harg8 arg9 harg9 x0 x1 x2 x3 x4 x5 x6
      = k0_pay6 (F := Ideal) (CAR k0_t1_loop.trips).1 (CAR k0_t1_loop.trips).2 x6 x4 := by
  unfold out0_A_7
  rw [View.read_writes_eq_canon _ _ _ (cover0_A_7 c i arg2 harg2 arg3 harg3 arg4 harg4 arg5 harg5 arg6 harg6 arg7 harg7 arg8 harg8 arg9 harg9 x0 x1 x2 x3 x4 x5 x6)]
  unfold kernelRun0_A
  dsimp only
  rw [View.canon_unit_zero hz]
  simp only [View.readAt_eq_ld, harg4.read_unread, harg5.read_unread, harg6.read_unread, harg8.read_unread,
    View.ld_unit_zero (S := S512x1) hz, View.ld_unit_zero (S := S512x16) hz, View.ld_unit_zero (S := S1x512) hz]
  rfl

/-- Columns `512 k … 512 k + 511` of the activation block, as trip `k` loads them. -/
theorem chunk_x (k : Fin k0_t1_loop.trips) (p : Fin 256) (kk : Fin 512) (h : 512 * k.val + kk.val < 4096) :
    View.readAt (Elt Ideal) arg2.view (Rect.unit (s := S256x4096) (k0_off1 k) S256x512.size (k0_off1_inb k)).toLoadRect (harg2.unread x0) (ix2 p kk)
      = x0 (ix2 p ⟨512 * k.val + kk.val, h⟩) := by
  rw [View.readAt_eq_ld, harg2.read_unread]
  exact Cert.Spec.ld_columns (R := 256) (C := 4096) (c := 512) x0 (k0_off1 k) (512 * k.val) (k0_off1_eq k) (k0_off1_inb k) p kk h

/-- The same columns of the weight-code block. -/
theorem chunk_q (k : Fin k0_t1_loop.trips) (q : Fin 512) (kk : Fin 512) (h : 512 * k.val + kk.val < 4096) :
    View.readAt (Elt Ideal) arg3.view (Rect.unit (s := S512x4096) (k0_off2 k) S512x512.size (k0_off2_inb k)).toLoadRect (harg3.unread x1) (ix2 q kk)
      = x1 (ix2 q ⟨512 * k.val + kk.val, h⟩) := by
  rw [View.readAt_eq_ld, harg3.read_unread]
  exact Cert.Spec.ld_columns (R := 512) (C := 4096) (c := 512) x1 (k0_off2 k) (512 * k.val) (k0_off2_eq k) (k0_off2_inb k) q kk h

/-- The same columns of the low-rank factor A. -/
theorem chunk_a (k : Fin k0_t1_loop.trips) (r : Fin 16) (kk : Fin 512) (h : 512 * k.val + kk.val < 4096) :
    View.readAt (Elt Ideal) arg7.view (Rect.unit (s := S16x4096) (k0_off3 k) S16x512.size (k0_off3_inb k)).toLoadRect (harg7.unread x5) (ix2 r kk)
      = x5 (ix2 r ⟨512 * k.val + kk.val, h⟩) := by
  rw [View.readAt_eq_ld, harg7.read_unread]
  exact Cert.Spec.ld_columns (R := 16) (C := 4096) (c := 512) x5 (k0_off3 k) (512 * k.val) (k0_off3_eq k) (k0_off3_inb k) r kk h

/-- Before trip `n` the main total at (p, q) is the chunked running sum of `X(p, ·) · W(q, ·)` over the first `n` chunks,
    and the low-rank total at (p, r) that of `X(p, ·) · A(r, ·)`. -/
theorem carried_apply (n : ℕ) (hn : n ≤ 8) (p : Fin 256) :
    (∀ q : Fin 512, (CAR n).1 (ix2 p q)
        = ChunkSum.running 512 (Cert.Spec.term fun m => x0 (ix2 p m) * Cert.Spec.deq x1 x2 x3 q m) 0 n)
    ∧ (∀ r : Fin 16, (CAR n).2 (ix2 p r)
        = ChunkSum.running 512 (Cert.Spec.term fun m => x0 (ix2 p m) * x5 (ix2 r m)) 0 n) := by
  induction n with
  | zero =>
    refine ⟨fun q => ?_, fun r => ?_⟩
    · show Ideal.ofBits .f32 0x00000000#32 = 0
      exact Ideal.ofBits_zero_f32
    · show Ideal.ofBits .f32 0x00000000#32 = 0
      exact Ideal.ofBits_zero_f32
  | succ n ih =>
    have hn' : n < 8 := by omega
    obtain ⟨ih1, ih2⟩ := ih (by omega)
    have hk : n < k0_t1_loop.trips := by rw [trips_eq]; exact hn'
    have hs : CAR (n + 1) = tripR_k0_t1 (F := Ideal) Variants.none c none i arg2 harg2 arg3 harg3 arg4 harg4 arg5 harg5 arg6 harg6 arg7 harg7 arg8 harg8 arg9 harg9
        x2 x3 (harg2.unread x0) (harg3.unread x1) (harg7.unread x5) ⟨n, hk⟩ (CAR n) :=
      st_k0_t1_succ (F := Ideal) Variants.none c none i arg2 harg2 arg3 harg3 arg4 harg4 arg5 harg5 arg6 harg6 arg7 harg7 arg8 harg8 arg9 harg9
        x2 x3 (harg2.unread x0) (harg3.unread x1) (harg7.unread x5) (k0_pay1 (F := Ideal), k0_pay2 (F := Ideal)) ⟨n, hk⟩
    rw [hs, trip_eq]
    refine ⟨fun q => ?_, fun r => ?_⟩
    · refine (Cert.KernelIdeal.PayIdx.pay4_apply _ _ _ _ _ p q).trans ?_
      rw [ChunkSum.running_succ, ih1 q]
      refine congrArg (_ + ·) (Finset.sum_congr rfl fun kk _ => ?_)
      have hlt : 512 * n + kk.val < 4096 := by have := kk.isLt; omega
      rw [Cert.Spec.term_of_lt _ _ hlt, chunk_x arg2 harg2 x0 ⟨n, hk⟩ p kk hlt]
      refine congrArg (_ * ·) ?_
      unfold Cert.KernelIdeal.PayIdx.wq Cert.Spec.deq
      rw [chunk_q arg3 harg3 x1 ⟨n, hk⟩ q kk hlt]
    · refine (Cert.KernelIdeal.PayIdx.pay5_apply _ _ _ p r).trans ?_
      rw [ChunkSum.running_succ, ih2 r]
      refine congrArg (_ + ·) (Finset.sum_congr rfl fun kk _ => ?_)
      have hlt : 512 * n + kk.val < 4096 := by have := kk.isLt; omega
      rw [Cert.Spec.term_of_lt _ _ hlt, chunk_x arg2 harg2 x0 ⟨n, hk⟩ p kk hlt,
        chunk_a arg7 harg7 x5 ⟨n, hk⟩ r kk hlt]

/-- WHAT A POINT STORES: the layer's formula of its seven input blocks, entry by entry. -/
theorem block_apply (p : Fin 256) (q : Fin 512) :
    out0_A_7 (F := Ideal) c i arg2 harg2 arg3 harg3 arg4 harg4 arg5 harg5 arg6 harg6 arg7 harg7 arg8 harg8 arg9 harg9 x0 x1 x2 x3 x4 x5 x6 (ix2 p q)
      = Cert.Spec.out (R := 256) (O := 512) x0 x1 x2 x3 x4 x5 x6 p q := by
  rw [block_eq]
  refine (Cert.KernelIdeal.PayIdx.pay6_apply _ _ _ _ p q).trans ?_
  obtain ⟨h1, h2⟩ := carried_apply c i arg2 harg2 arg3 harg3 arg4 harg4 arg5 harg5 arg6 harg6 arg7 harg7 arg8 harg8 arg9 harg9 x0 x1 x2 x3 x5 8 (le_refl 8) p
  rw [trips_eq, h1 q, Cert.Spec.running_eight]
  unfold Cert.Spec.out
  refine congrArg (_ + · * Cert.Spec.two) (Finset.sum_congr rfl fun r _ => ?_)
  rw [h2 r, Cert.Spec.running_eight]

end

end Cert.KernelIdeal.Point

end
-- ==== Proof.GridFacts.lean ====
/-
  The grid's index maps, decided once over its 256 points.

  Point `t` of the 8 × 32 grid has column tile `t / 32` and row tile `t mod 32`. The activations' window follows the row
  tile; the weight codes', the two dequantization columns', the bias row's and B's windows follow the column tile; A's
  window does not move; the output's window follows both.
-/
import proofs.«162262_j9423158247447_1_alg».proof.Proof.Gen.KernelIdeal.Frame

set_option maxRecDepth 16384

noncomputable section

namespace Cert.KernelIdeal.GridFacts

open Cert.KernelIdeal Cert.KernelIdeal.Gen Idealize.ShloMosaic Idealize.ShloMosaic.TcCoe
open Idealize.SL Idealize.SL.Sem

/-- The printed index maps, decided over the 256 points: which tile of each operand a point reads, relative to its
    output tile, and the ranges of the output's tile indices. -/
theorem idx_facts : ∀ t : Fin cfg0.N,
    win0_0.index t (0 : Fin 2) = win0_7.index t (0 : Fin 2) ∧ win0_0.index t (1 : Fin 2) = 0
    ∧ win0_1.index t (0 : Fin 2) = win0_7.index t (1 : Fin 2) ∧ win0_1.index t (1 : Fin 2) = 0
    ∧ win0_2.index t (0 : Fin 2) = win0_7.index t (1 : Fin 2) ∧ win0_2.index t (1 : Fin 2) = 0
    ∧ win0_3.index t (0 : Fin 2) = win0_7.index t (1 : Fin 2) ∧ win0_3.index t (1 : Fin 2) = 0
    ∧ win0_4.index t (0 : Fin 2) = 0 ∧ win0_4.index t (1 : Fin 2) = win0_7.index t (1 : Fin 2)
    ∧ win0_5.index t (0 : Fin 2) = 0 ∧ win0_5.index t (1 : Fin 2) = 0
    ∧ win0_6.index t (0 : Fin 2) = win0_7.index t (1 : Fin 2) ∧ win0_6.index t (1 : Fin 2) = 0
    ∧ win0_7.index t (0 : Fin 2) < 32 ∧ win0_7.index t (1 : Fin 2) < 8 :=
  (by decide +kernel : ∀ t : Fin grid0.N, _)

/-- The output's tile indices in closed form: point `t` has row tile `t mod 32` and column tile `t / 32`. -/
theorem idx_out : ∀ t : Fin cfg0.N,
    win0_7.index t (0 : Fin 2) = t.val % 32 ∧ win0_7.index t (1 : Fin 2) = t.val / 32 :=
  (by decide +kernel : ∀ t : Fin grid0.N, _)

end Cert.KernelIdeal.GridFacts

end
-- ==== Proof.Blocks.lean ====
/-
  Each input block of a grid point, read where the point's output block says.

  With `i` the point's row tile and `j` its column tile: entry (p, n) of the activations' block is entry (256 i + p, n)
  of the flattened activations; entry (q, ·) of the blocks of the weight codes, of the two dequantization columns and of B
  is entry (512 j + q, ·) of those arrays; entry (0, q) of the bias block is entry (0, 512 j + q) of the bias row; A's block
  is A. The arrays are those the region finds when it starts.
-/
import proofs.«162262_j9423158247447_1_alg».proof.Proof.Gen.KernelIdeal.Frame
import proofs.«162262_j9423158247447_1_alg».proof.Proof.GridFacts
import Idealize.ShloMosaic.Lib.Pipeline.Value
import Idealize.ShloMosaic.Lib.ValueIdx
import Idealize.ShloMosaic.PureOps.Ideal

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL Idealize.SL.Sem
open Idealize.ShloMosaic.Pipeline (Dat)
open Cert.KernelIdeal.GridFacts

variable (m : (ℓ : Loc nD τ sig) → Buf (Elt Ideal) ℓ)

theorem blk0 (c : Dev nD) (t : Fin cfg0.N) (p : Fin 256) (n : Fin 4096) (P : Fin 8192)
    (hP : P.val = win0_7.index t (0 : Fin 2) * 256 + p.val) :
    iblk m c 0 t (ix2 p n) = (V m c main_v0 : S8192x4096.Idx → Elt Ideal .f32) (ix2 P n) := by
  obtain ⟨e00, e01, -⟩ := idx_facts t
  show (V m c main_v0 : S8192x4096.Idx → Elt Ideal .f32) (((cfg0.win 0).blk t).view.emb (ix2 p n)) = _
  refine congrArg _ (funext fun a => Fin.ext ?_)
  match a with
  | ⟨0, _⟩ => show win0_0.index t (0 : Fin 2) * 256 + 1 * p.val = P.val; omega
  | ⟨1, _⟩ => show win0_0.index t (1 : Fin 2) * 4096 + 1 * n.val = n.val; omega

theorem blk1 (c : Dev nD) (t : Fin cfg0.N) (q : Fin 512) (n : Fin 4096) (Qo : Fin 4096)
    (hQ : Qo.val = win0_7.index t (1 : Fin 2) * 512 + q.val) :
    iblk m c 1 t (ix2 q n) = (V m c main_arg1 : S4096x4096.Idx → Elt Ideal .i32) (ix2 Qo n) := by
  obtain ⟨-, -, e10, e11, -⟩ := idx_facts t
  show (V m c main_arg1 : S4096x4096.Idx → Elt Ideal .i32) (((cfg0.win 1).blk t).view.emb (ix2 q n)) = _
  refine congrArg _ (funext fun a => Fin.ext ?_)
  match a with
  | ⟨0, _⟩ => show win0_1.index t (0 : Fin 2) * 512 + 1 * q.val = Qo.val; omega
  | ⟨1, _⟩ => show win0_1.index t (1 : Fin 2) * 4096 + 1 * n.val = n.val; omega

theorem blk2 (c : Dev nD) (t : Fin cfg0.N) (q : Fin 512) (Qo : Fin 4096)
    (hQ : Qo.val = win0_7.index t (1 : Fin 2) * 512 + q.val) :
    iblk m c 2 t (ix2 q (0 : Fin 1)) = (V m c main_arg2 : S4096x1.Idx → Elt Ideal .f32) (ix2 Qo (0 : Fin 1)) := by
  obtain ⟨-, -, -, -, e20, e21, -⟩ := idx_facts t
  show (V m c main_arg2 : S4096x1.Idx → Elt Ideal .f32) (((cfg0.win 2).blk t).view.emb (ix2 q (0 : Fin 1))) = _
  refine congrArg _ (funext fun a => Fin.ext ?_)
  match a with
  | ⟨0, _⟩ => show win0_2.index t (0 : Fin 2) * 512 + 1 * q.val = Qo.val; omega
  | ⟨1, _⟩ => show win0_2.index t (1 : Fin 2) * 1 + 1 * 0 = 0; omega

theorem blk3 (c : Dev nD) (t : Fin cfg0.N) (q : Fin 512) (Qo : Fin 4096)
    (hQ : Qo.val = win0_7.index t (1 : Fin 2) * 512 + q.val) :
    iblk m c 3 t (ix2 q (0 : Fin 1)) = (V m c main_arg3 : S4096x1.Idx → Elt Ideal .f32) (ix2 Qo (0 : Fin 1)) := by
  obtain ⟨-, -, -, -, -, -, e30, e31, -⟩ := idx_facts t
  show (V m c main_arg3 : S4096x1.Idx → Elt Ideal .f32) (((cfg0.win 3).blk t).view.emb (ix2 q (0 : Fin 1))) = _
  refine congrArg _ (funext fun a => Fin.ext ?_)
  match a with
  | ⟨0, _⟩ => show win0_3.index t (0 : Fin 2) * 512 + 1 * q.val = Qo.val; omega
  | ⟨1, _⟩ => show win0_3.index t (1 : Fin 2) * 1 + 1 * 0 = 0; omega

theorem blk4 (c : Dev nD) (t : Fin cfg0.N) (q : Fin 512) (Qo : Fin 4096)
    (hQ : Qo.val = win0_7.index t (1 : Fin 2) * 512 + q.val) :
    iblk m c 4 t (ix2 (0 : Fin 1) q) = (V m c main_v1 : S1x4096.Idx → Elt Ideal .f32) (ix2 (0 : Fin 1) Qo) := by
  obtain ⟨-, -, -, -, -, -, -, -, e40, e41, -⟩ := idx_facts t
  show (V m c main_v1 : S1x4096.Idx → Elt Ideal .f32) (((cfg0.win 4).blk t).view.emb (ix2 (0 : Fin 1) q)) = _
  refine congrArg _ (funext fun a => Fin.ext ?_)
  match a with
  | ⟨0, _⟩ => show win0_4.index t (0 : Fin 2) * 1 + 1 * 0 = 0; omega
  | ⟨1, _⟩ => show win0_4.index t (1 : Fin 2) * 512 + 1 * q.val = Qo.val; omega

theorem blk5 (c : Dev nD) (t : Fin cfg0.N) (r : Fin 16) (n : Fin 4096) :
    iblk m c 5 t (ix2 r n) = (V m c main_arg5 : S16x4096.Idx → Elt Ideal .f32) (ix2 r n) := by
  obtain ⟨-, -, -, -, -, -, -, -, -, -, e50, e51, -⟩ := idx_facts t
  show (V m c main_arg5 : S16x4096.Idx → Elt Ideal .f32) (((cfg0.win 5).blk t).view.emb (ix2 r n)) = _
  refine congrArg _ (funext fun a => Fin.ext ?_)
  match a with
  | ⟨0, _⟩ => show win0_5.index t (0 : Fin 2) * 16 + 1 * r.val = r.val; omega
  | ⟨1, _⟩ => show win0_5.index t (1 : Fin 2) * 4096 + 1 * n.val = n.val; omega

theorem blk6 (c : Dev nD) (t : Fin cfg0.N) (q : Fin 512) (r : Fin 16) (Qo : Fin 4096)
    (hQ : Qo.val = win0_7.index t (1 : Fin 2) * 512 + q.val) :
    iblk m c 6 t (ix2 q r) = (V m c main_arg6 : S4096x16.Idx → Elt Ideal .f32) (ix2 Qo r) := by
  obtain ⟨-, -, -, -, -, -, -, -, -, -, -, -, e60, e61, -⟩ := idx_facts t
  show (V m c main_arg6 : S4096x16.Idx → Elt Ideal .f32) (((cfg0.win 6).blk t).view.emb (ix2 q r)) = _
  refine congrArg _ (funext fun a => Fin.ext ?_)
  match a with
  | ⟨0, _⟩ => show win0_6.index t (0 : Fin 2) * 512 + 1 * q.val = Qo.val; omega
  | ⟨1, _⟩ => show win0_6.index t (1 : Fin 2) * 16 + 1 * r.val = r.val; omega

end Cert.KernelIdeal.Blocks

end
-- ==== Proof.Final.lean ====
/-
  From the blocks to the whole array.

  The grid has 8 × 32 points; point `t` handles the 512-column tile `j` of the output features and the 256-row tile `i`
  of the flattened activations. Its input blocks are rows `256 i …` of the activations, rows `512 j …` of the weight
  codes, of the two per-row dequantization columns and of B, columns `512 j …` of the bias row, and all of A; its output
  block is rows `256 i …`, columns `512 j …` of the [8192, 4096] result. Since the layer's formula at (row, column) reads
  only row `row` of the activations and row `column` of the per-output operands, what a point stores is the
  restriction to its block of ONE function of the arrays as the region finds them; the 256 blocks tile the result, so
  the result array ends equal to that function.
-/
import proofs.«162262_j9423158247447_1_alg».proof.Proof.Gen.KernelIdeal.Frame
import proofs.«162262_j9423158247447_1_alg».proof.Proof.Point
import proofs.«162262_j9423158247447_1_alg».proof.Proof.GridFacts
import proofs.«162262_j9423158247447_1_alg».proof.Proof.Blocks
import Idealize.ShloMosaic.Lib.Pipeline.Value

set_option maxRecDepth 16384

noncomputable section

open scoped BigOperators

namespace Cert.KernelIdeal.Final

open Cert.KernelIdeal Cert.KernelIdeal.Gen Idealize.ShloMosaic Idealize.ShloMosaic.TcCoe Idealize.ShloMosaic.ValueIdx
open Idealize.SL Idealize.SL.Sem
open Idealize.ShloMosaic.Pipeline (Dat)
open Cert.KernelIdeal.GridFacts Cert.KernelIdeal.Blocks

/-- The layer's formula depends on its operands only through the activations' row and the per-output rows it names. -/
theorem out_congr {R O R' O' : ℕ}
    (X : (⟨2, ![R, 4096]⟩ : Shape).Idx → EReal) (Q : (⟨2, ![O, 4096]⟩ : Shape).Idx → BitVec 32)
    (wmin wscale : (⟨2, ![O, 1]⟩ : Shape).Idx → EReal) (bias : (⟨2, ![1, O]⟩ : Shape).Idx → EReal)
    (A : (⟨2, ![16, 4096]⟩ : Shape).Idx → EReal) (B : (⟨2, ![O, 16]⟩ : Shape).Idx → EReal)
    (X' : (⟨2, ![R', 4096]⟩ : Shape).Idx → EReal) (Q' : (⟨2, ![O', 4096]⟩ : Shape).Idx → BitVec 32)
    (wmin' wscale' : (⟨2, ![O', 1]⟩ : Shape).Idx → EReal) (bias' : (⟨2, ![1, O']⟩ : Shape).Idx → EReal)
    (A' : (⟨2, ![16, 4096]⟩ : Shape).Idx → EReal) (B' : (⟨2, ![O', 16]⟩ : Shape).Idx → EReal)
    (p : Fin R) (q : Fin O) (p' : Fin R') (q' : Fin O')
    (hX : ∀ n, X (ix2 p n) = X' (ix2 p' n)) (hQ : ∀ n, Q (ix2 q n) = Q' (ix2 q' n))
    (hmin : wmin (ix2 q (0 : Fin 1)) = wmin' (ix2 q' (0 : Fin 1))) (hscale : wscale (ix2 q (0 : Fin 1)) = wscale' (ix2 q' (0 : Fin 1)))
    (hbias : bias (ix2 (0 : Fin 1) q) = bias' (ix2 (0 : Fin 1) q')) (hA : ∀ r n, A (ix2 r n) = A' (ix2 r n))
    (hB : ∀ r, B (ix2 q r) = B' (ix2 q' r)) :
    Cert.Spec.out X Q wmin wscale bias A B p q = Cert.Spec.out X' Q' wmin' wscale' bias' A' B' p' q' := by
  unfold Cert.Spec.out Cert.Spec.deq
  simp only [hX, hQ, hmin, hscale, hbias, hA, hB]

variable (m : (ℓ : Loc nD τ sig) → Buf (Elt Ideal) ℓ)

/-- The region's result as one function of the arrays it finds: the layer's formula, row by row and column by column. -/
def result (c : Dev nD) : S8192x4096.Idx → Elt Ideal .f32 := fun j =>
  Cert.Spec.out (R := 8192) (O := 4096) (V m c main_v0 : S8192x4096.Idx → Elt Ideal .f32) (V m c main_arg1 : S4096x4096.Idx → Elt Ideal .i32)
    (V m c main_arg2 : S4096x1.Idx → Elt Ideal .f32) (V m c main_arg3 : S4096x1.Idx → Elt Ideal .f32) (V m c main_v1 : S1x4096.Idx → Elt Ideal .f32)
    (V m c main_arg5 : S16x4096.Idx → Elt Ideal .f32) (V m c main_arg6 : S4096x16.Idx → Elt Ideal .f32) (j 0) (j 1)

/-! ## What a point writes back, the cover, the array -/

/-- WHAT POINT `t` WRITES BACK is block `t` of `result`. -/
theorem flushed_eq (c : Dev nD) (t : Fin cfg0.N) :
    (dats m 0 c).flushed 7 t = ((cfg0.win 7).blk t).view.read (Elt Ideal) (result m c) := by
  show (cfg0.win 7).cut (grid0.coords t) ((dats m 0 c).after 7 t) = _
  rw [after0_7]
  obtain ⟨-, -, -, -, -, -, -, -, -, -, -, -, -, -, b0, b1⟩ := idx_facts t
  funext y
  obtain ⟨p, q, rfl⟩ : ∃ (p : Fin 256) (q : Fin 512), y = ix2 p q := ⟨y 0, y 1, eq_ix2 y⟩
  have hr : win0_7.index t (0 : Fin 2) * 256 + p.val < 8192 := by have := p.isLt; omega
  have hc : win0_7.index t (1 : Fin 2) * 512 + q.val < 4096 := by have := q.isLt; omega
  have hJ : ((cfg0.win 7).blk t).view.emb (ix2 p q)
      = ix2 (⟨win0_7.index t (0 : Fin 2) * 256 + p.val, hr⟩ : Fin 8192) (⟨win0_7.index t (1 : Fin 2) * 512 + q.val, hc⟩ : Fin 4096) := by
    funext a; apply Fin.ext
    match a with
    | ⟨0, _⟩ => show win0_7.index t (0 : Fin 2) * 256 + 1 * p.val = win0_7.index t (0 : Fin 2) * 256 + p.val; omega
    | ⟨1, _⟩ => show win0_7.index t (1 : Fin 2) * 512 + 1 * q.val = win0_7.index t (1 : Fin 2) * 512 + q.val; omega
  show outsAt0 m c t (ix2 p q) = result m c (((cfg0.win 7).blk t).view.emb (ix2 p q))
  rw [hJ]
  unfold outsAt0
  refine (Cert.KernelIdeal.Point.block_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t) p q).trans ?_
  exact out_congr (R := 256) (O := 512) (R' := 8192) (O' := 4096)
    (iblk m c 0 t : Vec Ideal S256x4096 .f32) (iblk m c 1 t : Vec Ideal S512x4096 .i32) (iblk m c 2 t : Vec Ideal S512x1 .f32)
    (iblk m c 3 t : Vec Ideal S512x1 .f32) (iblk m c 4 t : Vec Ideal S1x512 .f32) (iblk m c 5 t : Vec Ideal S16x4096 .f32)
    (iblk m c 6 t : Vec Ideal S512x16 .f32)
    (V m c main_v0 : S8192x4096.Idx → Elt Ideal .f32) (V m c main_arg1 : S4096x4096.Idx → Elt Ideal .i32)
    (V m c main_arg2 : S4096x1.Idx → Elt Ideal .f32) (V m c main_arg3 : S4096x1.Idx → Elt Ideal .f32) (V m c main_v1 : S1x4096.Idx → Elt Ideal .f32)
    (V m c main_arg5 : S16x4096.Idx → Elt Ideal .f32) (V m c main_arg6 : S4096x16.Idx → Elt Ideal .f32)
    p q ⟨_, hr⟩ ⟨_, hc⟩
    (fun n => blk0 m c t p n ⟨_, hr⟩ rfl) (fun n => blk1 m c t q n ⟨_, hc⟩ rfl)
    (blk2 m c t q ⟨_, hc⟩ rfl) (blk3 m c t q ⟨_, hc⟩ rfl) (blk4 m c t q ⟨_, hc⟩ rfl)
    (fun r n => blk5 m c t r n) (fun r => blk6 m c t q r ⟨_, hc⟩ rfl)

/-- An index of the result is in point `t`'s block iff each coordinate is in the block's range on its axis. -/
theorem mem_blk (t : Fin cfg0.N) (i : S8192x4096.Idx) :
    i ∈ ((cfg0.win 7).blk t).view.set ↔ ∀ a : Fin 2, win0_7.index t a * S256x512.size a ≤ (i a).val ∧ (i a).val < win0_7.index t a * S256x512.size a + S256x512.size a := by
  show i ∈ ((View.whole main_v2).slice (win0_7.rect t)).set ↔ _
  rw [View.set_slice_whole, Rect.mem_set_unit]
  exact Iff.rfl

/-- The 256 blocks tile the result: entry (row, column) lies in the block of row tile `row / 256`, column tile `column / 512`. -/
theorem cover (i : S8192x4096.Idx) : ∃ t : Fin cfg0.N, (cfg0.win 7).flush t = true ∧ i ∈ ((cfg0.win 7).blk t).view.set := by
  have hi0 : (i 0).val < 8192 := (i 0).isLt
  have hi1 : (i 1).val < 4096 := (i 1).isLt
  have hN : 32 * ((i 1).val / 512) + (i 0).val / 256 < cfg0.N := by
    show _ < grid0.N
    rw [N_0]; omega
  obtain ⟨q0, q1⟩ := idx_out ⟨32 * ((i 1).val / 512) + (i 0).val / 256, hN⟩
  have q0' : win0_7.index ⟨32 * ((i 1).val / 512) + (i 0).val / 256, hN⟩ (0 : Fin 2) = (i 0).val / 256 := by
    rw [q0]; show (32 * ((i 1).val / 512) + (i 0).val / 256) % 32 = _; omega
  have q1' : win0_7.index ⟨32 * ((i 1).val / 512) + (i 0).val / 256, hN⟩ (1 : Fin 2) = (i 1).val / 512 := by
    rw [q1]; show (32 * ((i 1).val / 512) + (i 0).val / 256) / 32 = _; omega
  refine ⟨⟨32 * ((i 1).val / 512) + (i 0).val / 256, hN⟩, flush0_7 _, ?_⟩
  rw [mem_blk]
  intro a
  match a with
  | ⟨0, _⟩ =>
    show win0_7.index ⟨32 * ((i 1).val / 512) + (i 0).val / 256, hN⟩ (0 : Fin 2) * 256 ≤ (i 0).val
      ∧ (i 0).val < win0_7.index ⟨32 * ((i 1).val / 512) + (i 0).val / 256, hN⟩ (0 : Fin 2) * 256 + 256
    rw [q0']; omega
  | ⟨1, _⟩ =>
    show win0_7.index ⟨32 * ((i 1).val / 512) + (i 0).val / 256, hN⟩ (1 : Fin 2) * 512 ≤ (i 1).val
      ∧ (i 1).val < win0_7.index ⟨32 * ((i 1).val / 512) + (i 0).val / 256, hN⟩ (1 : Fin 2) * 512 + 512
    rw [q1']; omega

/-- THE RESULT ARRAY after the region: the layer's formula of the arrays the region found. -/
theorem final (c : Dev nD) : (dats m 0 c).arrAt 7 cfg0.N = result m c :=
  (dats m 0 c).arrAt_eq_of_cover 7 (result m c) (fun t _ => flushed_eq m c t) (cover)

end Cert.KernelIdeal.Final

end
-- ==== Proof.Whole.lean ====
/-
  The result both programs end with, as ONE function of the seven argument arrays.

  For the activations `x` ([4, 2048, 4096]) entry (b, s, o) of the result is the layer's formula of row (b, s) of `x`
  and of row `o` of the per-output operands:

      (Σ n, x(b, s, n) · (Q(o, n) · wscale(o) + wmin(o)) + bias(o)) + (Σ r, (Σ n, x(b, s, n) · A(r, n)) · B(o, r)) · 2.

  It is the formula `Spec.out` of the activations flattened to [8192, 4096] and of the bias written as a [1, 4096] row,
  read at row `2048 b + s`.
-/
import proofs.«162262_j9423158247447_1_alg».proof.Proof.Spec
import Idealize.ShloMosaic.Lib.ValueLayout

noncomputable section

open scoped BigOperators

namespace Cert.Whole

open Idealize.ShloMosaic Idealize.ShloMosaic.ValueIdx

/-- The result at (b, s, o). -/
def G (x0 : (⟨3, ![4, 2048, 4096]⟩ : Shape).Idx → EReal) (x1 : (⟨2, ![4096, 4096]⟩ : Shape).Idx → BitVec 32)
    (x2 x3 : (⟨2, ![4096, 1]⟩ : Shape).Idx → EReal) (x4 : (⟨1, ![4096]⟩ : Shape).Idx → EReal)
    (x5 : (⟨2, ![16, 4096]⟩ : Shape).Idx → EReal) (x6 : (⟨2, ![4096, 16]⟩ : Shape).Idx → EReal) :
    (⟨3, ![4, 2048, 4096]⟩ : Shape).Idx → EReal := fun i =>
  ((∑ n : Fin 4096, x0 (ix3 (i 0) (i 1) n) * Cert.Spec.deq x1 x2 x3 (i 2) n) + x4 (ix1 (i 2)))
    + (∑ r : Fin 16, (∑ n : Fin 4096, x0 (ix3 (i 0) (i 1) n) * x5 (ix2 r n)) * x6 (ix2 (i 2) r)) * Cert.Spec.two

/-- The flattened layer's formula at row `2048 b + s` is the result at (b, s, o), when the flattened activations hold
    row (b, s) there and the bias row holds the bias vector. -/
theorem out_flat (X : (⟨2, ![8192, 4096]⟩ : Shape).Idx → EReal) (bias : (⟨2, ![1, 4096]⟩ : Shape).Idx → EReal)
    (x0 : (⟨3, ![4, 2048, 4096]⟩ : Shape).Idx → EReal) (x1 : (⟨2, ![4096, 4096]⟩ : Shape).Idx → BitVec 32)
    (x2 x3 : (⟨2, ![4096, 1]⟩ : Shape).Idx → EReal) (x4 : (⟨1, ![4096]⟩ : Shape).Idx → EReal)
    (x5 : (⟨2, ![16, 4096]⟩ : Shape).Idx → EReal) (x6 : (⟨2, ![4096, 16]⟩ : Shape).Idx → EReal)
    (b : Fin 4) (s : Fin 2048) (o : Fin 4096) (P : Fin 8192)
    (hX : ∀ n, X (ix2 P n) = x0 (ix3 b s n)) (hb : bias (ix2 (0 : Fin 1) o) = x4 (ix1 o)) :
    Cert.Spec.out (R := 8192) (O := 4096) X x1 x2 x3 bias x5 x6 P o = G x0 x1 x2 x3 x4 x5 x6 (ix3 b s o) := by
  unfold Cert.Spec.out G
  simp only [hX, hb]

end Cert.Whole

end
-- ==== Proof.Tail.lean ====
/-
  The idealized kernel's run, with its result named.

  Before the region the host flattens the activations to [8192, 4096] and writes the bias as a [1, 4096] row; after it the
  host reshapes the region's [8192, 4096] result to [4, 2048, 4096]. A reshape keeps row-major positions: row
  `2048 b + s` of the flattened array is row (b, s). So the program's result at (b, s, o) is the region's result at
  (2048 b + s, o), which is the layer's formula of row (b, s) of the activations: the result function `Whole.G` of the
  seven argument arrays.
-/
import proofs.«162262_j9423158247447_1_alg».proof.Proof.Gen.KernelIdeal.Frame
import proofs.«162262_j9423158247447_1_alg».proof.Proof.Final
import proofs.«162262_j9423158247447_1_alg».proof.Proof.Whole
import Idealize.ShloMosaic.Lib.StableHlo.Run
import Idealize.ShloMosaic.Lib.Pipeline.Value

set_option maxRecDepth 16384

noncomputable section

namespace Cert.KernelIdeal.Tail

open Cert.KernelIdeal Cert.KernelIdeal.Gen Idealize.ShloMosaic Idealize.ShloMosaic.TcCoe Idealize.ShloMosaic.ValueIdx
open Idealize.ShloMosaic.StableHlo
open Idealize.SL Idealize.SL.Sem

variable (m : (ℓ : Loc nD τ sig) → Buf (Elt Ideal) ℓ) (ρ : Dev nD → PrngReg)

/-- The flattened activations, as the region finds them. -/
theorem V_main_v0 (c : Dev nD) :
    (V m c main_v0 : S8192x4096.Idx → Elt Ideal .f32)
      = shapeCast S8192x4096 (m ((c.tc : Thread nD τ).loc main_arg0)) shapeCasts_S4x2048x4096_S8192x4096 := by
  show StableHlo.after hostOps0 (fun b => m (c, b)) (Proc.devRef .tc main_v0) = _
  after_results
  rfl

/-- The bias row, as the region finds it. -/
theorem V_main_v1 (c : Dev nD) :
    (V m c main_v1 : S1x4096.Idx → Elt Ideal .f32)
      = shapeCast S1x4096 (m ((c.tc : Thread nD τ).loc main_arg4)) shapeCasts_S4096_S1x4096 := by
  show StableHlo.after hostOps0 (fun b => m (c, b)) (Proc.devRef .tc main_v1) = _
  after_results
  rfl

/-- Row `2048 b + s` of the flattened activations is row (b, s). -/
theorem V_main_v0_apply (c : Dev nD) (b : Fin 4) (s : Fin 2048) (n : Fin 4096) (P : Fin 8192) (hP : P.val = b.val * 2048 + s.val) :
    (V m c main_v0 : S8192x4096.Idx → Elt Ideal .f32) (ix2 P n) = m ((c.tc : Thread nD τ).loc main_arg0) (ix3 b s n) := by
  rw [V_main_v0]
  refine shapeCast_apply _ shapeCasts_S4x2048x4096_S8192x4096 (ix2 P n) (ix3 b s n) ?_
  rw [Shape.rowMajor_val_three, Shape.rowMajor_val_two]
  show (b.val * 2048 + s.val) * 4096 + n.val = P.val * 4096 + n.val
  rw [hP]

/-- Entry (0, o) of the bias row is entry `o` of the bias. -/
theorem V_main_v1_apply (c : Dev nD) (o : Fin 4096) :
    (V m c main_v1 : S1x4096.Idx → Elt Ideal .f32) (ix2 (0 : Fin 1) o) = m ((c.tc : Thread nD τ).loc main_arg4) (ix1 o) := by
  rw [V_main_v1]
  refine shapeCast_apply _ shapeCasts_S4096_S1x4096 (ix2 (0 : Fin 1) o) (ix1 o) ?_
  rw [Shape.rowMajor_val_one, Shape.rowMajor_val_two]
  show o.val = 0 * 4096 + o.val
  omega

/-- THE PROGRAM'S RESULT after the reshape that follows the region: the result function of the argument arrays. -/
theorem tail_eq (c : Dev nD) :
    (Pipeline.afterTail₀ cfgs (dats m) 0 (V0 m) [hostOps1] c main_v3 : S4x2048x4096.Idx → Elt Ideal .f32)
      = Cert.Whole.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = Cert.KernelIdeal.Final.result m c :=
    (Pipeline.withArrays_arr spec0 launch0.win.arr_inj c _ _ 7).trans (Cert.KernelIdeal.Final.final m c)
  funext i
  obtain ⟨b, s, o, rfl⟩ : ∃ (b : Fin 4) (s : Fin 2048) (o : Fin 4096), i = ix3 b s o := ⟨i 0, i 1, i 2, eq_ix3 i⟩
  show shapeCast S4x2048x4096 (Pipeline.withArrays (cfgs 0).spec c (V0 m c) (fun w => (dats m 0 c).arrAt w (cfgs 0).N) (Proc.devRef .tc main_v2))
      shapeCasts_S8192x4096_S4x2048x4096 (ix3 b s o) = _
  rw [hw]
  have hP : b.val * 2048 + s.val < 8192 := by have := b.isLt; have := s.isLt; omega
  refine (shapeCast_apply (Cert.KernelIdeal.Final.result m c) shapeCasts_S8192x4096_S4x2048x4096 (ix3 b s o)
    (ix2 (⟨b.val * 2048 + s.val, hP⟩ : Fin 8192) o) (by
      rw [Shape.rowMajor_val_three, Shape.rowMajor_val_two]
      show (b.val * 2048 + s.val) * 4096 + o.val = (b.val * 2048 + s.val) * 4096 + o.val
      rfl)).trans ?_
  show Cert.Spec.out (R := 8192) (O := 4096) (V m c main_v0 : S8192x4096.Idx → Elt Ideal .f32) (V m c main_arg1 : S4096x4096.Idx → Elt Ideal .i32)
    (V m c main_arg2 : S4096x1.Idx → Elt Ideal .f32) (V m c main_arg3 : S4096x1.Idx → Elt Ideal .f32) (V m c main_v1 : S1x4096.Idx → Elt Ideal .f32)
    (V m c main_arg5 : S16x4096.Idx → Elt Ideal .f32) (V m c main_arg6 : S4096x16.Idx → Elt Ideal .f32) ⟨b.val * 2048 + s.val, hP⟩ o = _
  rw [V_main_arg1 m c, V_main_arg2 m c, V_main_arg3 m c, V_main_arg5 m c, V_main_arg6 m c]
  exact Cert.Whole.out_flat _ _ _ _ _ _ _ _ _ b s o ⟨b.val * 2048 + s.val, hP⟩
    (fun n => V_main_v0_apply m c b s n ⟨b.val * 2048 + s.val, hP⟩ rfl) (V_main_v1_apply m c o)

/-- THE RUN: every weakly fair execution terminates with the result at the result function of the argument arrays, and
    the arguments unchanged. -/
theorem run : θ_run defs (onTc (τ := τ) (main (F := Ideal))) ⟨m, fun _ => 0, ρ⟩ (fun r => ∀ c : Dev nD,
      r.2.mem ((c.tc : Thread nD τ).loc main_v3) = Cert.Whole.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.Tail

end
-- ==== Proof.RefIsWhole.lean ====
/-
  The reference computes the result function.

  Read one operation at a time at the index (b, s, o): the dequantized weight is `Q · wscale + wmin` with the two columns
  broadcast along the input features; the two einsums are sums over the 4096 input features and over the 16 ranks; the
  bias is broadcast over (b, s); the low-rank term is scaled by the literal 2.
-/
import proofs.«162262_j9423158247447_1_alg».proof.Proof.Gen.ReferenceIdeal.Read
import proofs.«162262_j9423158247447_1_alg».proof.Proof.Whole

noncomputable section

open scoped BigOperators

namespace Cert.ReferenceIdeal.RefValue

open Cert.ReferenceIdeal Cert.ReferenceIdeal.Gen Cert.ReferenceIdeal.Read Idealize.ShloMosaic Idealize.ShloMosaic.ValueIdx

theorem l5 (b : Fin 4) (s : Fin 2048) (o k : Fin 4096) : lidx_main_v5 (ix3 b s o) k = ix3 b s k :=
  funext fun a => Fin.ext (by match a with | ⟨0, _⟩ => rfl | ⟨1, _⟩ => rfl | ⟨2, _⟩ => rfl)
theorem r5 (b : Fin 4) (s : Fin 2048) (o k : Fin 4096) : ridx_main_v5 (ix3 b s o) k = ix2 o k :=
  funext fun a => Fin.ext (by match a with | ⟨0, _⟩ => rfl | ⟨1, _⟩ => rfl)
theorem i1 (o k : Fin 4096) : idx_main_v1 (ix2 o k) = ix2 o (0 : Fin 1) :=
  funext fun a => Fin.ext (by match a with | ⟨0, _⟩ => rfl | ⟨1, _⟩ => rfl)
theorem i3 (o k : Fin 4096) : idx_main_v3 (ix2 o k) = ix2 o (0 : Fin 1) :=
  funext fun a => Fin.ext (by match a with | ⟨0, _⟩ => rfl | ⟨1, _⟩ => rfl)
theorem i67 (b : Fin 4) (s : Fin 2048) (o : Fin 4096) : idx_main_v6 (idx_main_v7 (ix3 b s o)) = ix1 o :=
  funext fun a => Fin.ext (by match a with | ⟨0, _⟩ => rfl)
theorem l10 (b : Fin 4) (s : Fin 2048) (o : Fin 4096) (r : Fin 16) : lidx_main_v10 (ix3 b s o) r = ix3 b s r :=
  funext fun a => Fin.ext (by match a with | ⟨0, _⟩ => rfl | ⟨1, _⟩ => rfl | ⟨2, _⟩ => rfl)
theorem r10 (b : Fin 4) (s : Fin 2048) (o : Fin 4096) (r : Fin 16) : ridx_main_v10 (ix3 b s o) r = ix2 o r :=
  funext fun a => Fin.ext (by match a with | ⟨0, _⟩ => rfl | ⟨1, _⟩ => rfl)
theorem l9 (b : Fin 4) (s : Fin 2048) (r : Fin 16) (k : Fin 4096) : lidx_main_v9 (ix3 b s r) k = ix3 b s k :=
  funext fun a => Fin.ext (by match a with | ⟨0, _⟩ => rfl | ⟨1, _⟩ => rfl | ⟨2, _⟩ => rfl)
theorem r9 (b : Fin 4) (s : Fin 2048) (r : Fin 16) (k : Fin 4096) : ridx_main_v9 (ix3 b s r) k = ix2 r k :=
  funext fun a => Fin.ext (by match a with | ⟨0, _⟩ => rfl | ⟨1, _⟩ => rfl)

/-- The dequantized weight at (o, k). -/
theorem weight_apply (x1 : (⟨S4096x4096, .i32⟩ : BufTy).Contents (Elt Ideal)) (x2 x3 : (⟨S4096x1, .f32⟩ : BufTy).Contents (Elt Ideal))
    (o k : Fin 4096) : val_main_v4 (F := Ideal) x1 x2 x3 (ix2 o k) = Cert.Spec.deq x1 x2 x3 o k := by
  rw [val_main_v4_apply, val_main_v2_apply, val_main_v0_apply, val_main_v1_apply, val_main_v3_apply, i1, i3]
  rfl

/-- The base product at (b, s, o): the sum over the 4096 input features. -/
theorem base_apply (x0 : (⟨S4x2048x4096, .f32⟩ : BufTy).Contents (Elt Ideal)) (x1 : (⟨S4096x4096, .i32⟩ : BufTy).Contents (Elt Ideal))
    (x2 x3 : (⟨S4096x1, .f32⟩ : BufTy).Contents (Elt Ideal)) (b : Fin 4) (s : Fin 2048) (o : Fin 4096) :
    val_main_v5 (F := Ideal) x0 x1 x2 x3 (ix3 b s o) = ∑ n : Fin 4096, x0 (ix3 b s n) * Cert.Spec.deq x1 x2 x3 o n := by
  rw [val_main_v5_apply]
  exact Finset.sum_congr rfl fun k _ => by rw [l5, r5, weight_apply]

/-- The bias broadcast over (b, s). -/
theorem bias_apply (x4 : (⟨S4096, .f32⟩ : BufTy).Contents (Elt Ideal)) (b : Fin 4) (s : Fin 2048) (o : Fin 4096) :
    val_main_v7 (F := Ideal) x4 (ix3 b s o) = x4 (ix1 o) := by
  rw [val_main_v7_apply, val_main_v6_apply, i67]

/-- The first low-rank product at (b, s, r). -/
theorem xa_apply (x0 : (⟨S4x2048x4096, .f32⟩ : BufTy).Contents (Elt Ideal)) (x5 : (⟨S16x4096, .f32⟩ : BufTy).Contents (Elt Ideal))
    (b : Fin 4) (s : Fin 2048) (r : Fin 16) :
    val_main_v9 (F := Ideal) x0 x5 (ix3 b s r) = ∑ n : Fin 4096, x0 (ix3 b s n) * x5 (ix2 r n) := by
  rw [val_main_v9_apply]
  exact Finset.sum_congr rfl fun k _ => by rw [l9, r9]

/-- The second low-rank product at (b, s, o). -/
theorem lora_apply (x0 : (⟨S4x2048x4096, .f32⟩ : BufTy).Contents (Elt Ideal)) (x5 : (⟨S16x4096, .f32⟩ : BufTy).Contents (Elt Ideal))
    (x6 : (⟨S4096x16, .f32⟩ : BufTy).Contents (Elt Ideal)) (b : Fin 4) (s : Fin 2048) (o : Fin 4096) :
    val_main_v10 (F := Ideal) x0 x5 x6 (ix3 b s o)
      = ∑ r : Fin 16, (∑ n : Fin 4096, x0 (ix3 b s n) * x5 (ix2 r n)) * x6 (ix2 o r) := by
  rw [val_main_v10_apply]
  exact Finset.sum_congr rfl fun r _ => by rw [l10, r10, xa_apply]

/-- The scale of the low-rank term. -/
theorem two_apply (b : Fin 4) (s : Fin 2048) (o : Fin 4096) : val_main_v11 (F := Ideal) (ix3 b s o) = Cert.Spec.two := by
  rw [val_main_v11_apply, val_main_cst_apply]
  rfl

/-- The reference's last stage is the result function of its arguments. -/
theorem ref_eq (x0 : (⟨S4x2048x4096, .f32⟩ : BufTy).Contents (Elt Ideal)) (x1 : (⟨S4096x4096, .i32⟩ : BufTy).Contents (Elt Ideal))
    (x2 x3 : (⟨S4096x1, .f32⟩ : BufTy).Contents (Elt Ideal)) (x4 : (⟨S4096, .f32⟩ : BufTy).Contents (Elt Ideal))
    (x5 : (⟨S16x4096, .f32⟩ : BufTy).Contents (Elt Ideal)) (x6 : (⟨S4096x16, .f32⟩ : BufTy).Contents (Elt Ideal)) :
    val_main_v13 (F := Ideal) x0 x1 x2 x3 x4 x5 x6 = Cert.Whole.G x0 x1 x2 x3 x4 x5 x6 := by
  funext i
  obtain ⟨b, s, o, rfl⟩ : ∃ (b : Fin 4) (s : Fin 2048) (o : Fin 4096), i = ix3 b s o := ⟨i 0, i 1, i 2, eq_ix3 i⟩
  rw [val_main_v13_apply, val_main_v8_apply, val_main_v12_apply, base_apply, bias_apply, lora_apply, two_apply,
    Ideal.addf_def, Ideal.addf_def, Ideal.mulf_def]
  rfl

end Cert.ReferenceIdeal.RefValue

end
-- ==== Proof.lean ====
/-
  The kernel computes a 4-bit-quantized linear layer with a rank-16 correction:

      out(b, s, o) = (Σ n, x(b, s, n) · (Q(o, n) · wscale(o) + wmin(o)) + bias(o)) + (Σ r, (Σ n, x(b, s, n) · A(r, n)) · B(o, r)) · 2.

  The kernel flattens the activations to [8192, 4096], tiles the result into 8 × 32 blocks of [256, 512], and at each grid
  point accumulates the two contractions over the 4096 input features in eight chunks of 512 inside a counted loop; the
  reference computes the same contractions as whole einsums. On the extended reals the two are the same function: the
  only law needed is that a sum may be regrouped into consecutive chunks, which holds for every commutative, associative
  addition, so the precondition (finite inputs) is not used. Changes of float format are the identity there, and the
  literal 2 is the same word on both sides.

  The three frames: the kernel's two are the generated frame certificates; the reference's is its generated run with the
  result dropped. The idealization rewrote nothing, so `preserves` is trivial. `algebraic`: the idealized kernel's run
  ends with the result at the result function `Whole.G` of the argument arrays (Proof/Tail.lean, over Proof/Final.lean,
  Proof/Point.lean), the reference's run ends at the same function of its arguments (Proof/RefIsWhole.lean), and the two
  memories agree on the arguments.
-/
import proofs.«162262_j9423158247447_1_alg».proof.Defs
import proofs.«162262_j9423158247447_1_alg».proof.Proof.Gen.Kernel
import proofs.«162262_j9423158247447_1_alg».proof.Proof.Gen.Kernel.Skeleton
import proofs.«162262_j9423158247447_1_alg».proof.Proof.Gen.Kernel.Loops
import proofs.«162262_j9423158247447_1_alg».proof.Proof.Gen.Kernel.Launch
import proofs.«162262_j9423158247447_1_alg».proof.Proof.Gen.Kernel.Points
import proofs.«162262_j9423158247447_1_alg».proof.Proof.Gen.Kernel.Frame
import proofs.«162262_j9423158247447_1_alg».proof.Proof.Gen.KernelIdeal
import proofs.«162262_j9423158247447_1_alg».proof.Proof.Gen.KernelIdeal.Skeleton
import proofs.«162262_j9423158247447_1_alg».proof.Proof.Gen.KernelIdeal.Loops
import proofs.«162262_j9423158247447_1_alg».proof.Proof.Gen.KernelIdeal.Launch
import proofs.«162262_j9423158247447_1_alg».proof.Proof.Gen.KernelIdeal.Points
import proofs.«162262_j9423158247447_1_alg».proof.Proof.Gen.KernelIdeal.Frame
import proofs.«162262_j9423158247447_1_alg».proof.Proof.Gen.ReferenceIdeal
import proofs.«162262_j9423158247447_1_alg».proof.Proof.Gen.Pre_finite_inputs
import proofs.«162262_j9423158247447_1_alg».proof.Proof.Gen.ReferenceIdeal.Run
import proofs.«162262_j9423158247447_1_alg».proof.Proof.Gen.ReferenceIdeal.Read
import proofs.«162262_j9423158247447_1_alg».proof.Proof.Tail
import proofs.«162262_j9423158247447_1_alg».proof.Proof.RefIsWhole
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the result function of the (agreeing) argument arrays. -/
theorem algebraic : Cert.algebraic_KernelIdeal_ReferenceIdeal := by
  intro m ρ m' ρ' _ hagree
  refine ⟨fun c => Cert.Whole.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.ref_eq,
    (hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
